-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192 : Shape := ⟨1, ![8192]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8192x8192 .f32) (main_arg1 : FVec F S8192 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192 .f32 := Host.absf main_arg1
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  main_v8
-- ==== Kernel.lean ====
abbrev S8192x8192 : Shape := ⟨2, ![8192, 8192]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S128x8192 : Shape := ⟨2, ![128, 8192]⟩
abbrev S128x1 : Shape := ⟨2, ![128, 1]⟩

abbrev nBuf : Space → Nat
  | .hbm => 14
  | .vmem => 7
  | .smem => 0
  | _ => 0

abbrev bufTy : (tb : Table) → Fin (tcTables nBuf tb) → BufTy
  | .hbm, ⟨0, _⟩ => ⟨S8192x8192, .f32⟩
  | .hbm, ⟨1, _⟩ => ⟨S8192, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S8192, .f32⟩
  | .hbm, ⟨6, _⟩ => ⟨S8192, .f32⟩
  | .hbm, ⟨7, _⟩ => ⟨S_, .f32⟩
  | .hbm, ⟨8, _⟩ => ⟨S_, .f32⟩
  | .hbm, ⟨9, _⟩ => ⟨S8192, .f32⟩
  | .hbm, ⟨10, _⟩ => ⟨S8192, .f32⟩
  | .hbm, ⟨11, _⟩ => ⟨S8192x1, .f32⟩
  | .hbm, ⟨12, _⟩ => ⟨S1x8192, .f32⟩
  | .hbm, ⟨13, _⟩ => ⟨S8192x8192, .f32⟩
  | .local _ .vmem, ⟨0, _⟩ => ⟨S128x8192, .f32⟩
  | .local _ .vmem, ⟨1, _⟩ => ⟨S128x8192, .f32⟩
  | .local _ .vmem, ⟨2, _⟩ => ⟨S128x1, .f32⟩
  | .local _ .vmem, ⟨3, _⟩ => ⟨S128x1, .f32⟩
  | .local _ .vmem, ⟨4, _⟩ => ⟨S1x8192, .f32⟩
  | .local _ .vmem, ⟨5, _⟩ => ⟨S128x8192, .f32⟩
  | .local _ .vmem, ⟨6, _⟩ => ⟨S128x8192, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S8192_S_d0 : S8192.ReducesTo [0] S_
  h_S_ : 0 < S_.numel
  bcast_S_S8192 : S_.BroadcastsInDim S8192 (![] : Fin 0 → Fin S8192.rank)
  shapeCasts_S8192_S8192x1 : S8192.ShapeCasts S8192x1
  shapeCasts_S8192_S1x8192 : S8192.ShapeCasts S1x8192
  inb_S128x8192_S128x8192_0_0 : ∀ a, (![0, 0] : Fin 2 → Nat) a + S128x8192.size a ≤ S128x8192.size a
  h_S128x8192 : 0 < S128x8192.numel
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S128x1_S128x8192 : S128x1.Broadcasts S128x8192
  broadcasts_S1x8192_S128x8192 : S1x8192.Broadcasts S128x8192
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x8192.size a ≤ S8192x8192.size a
  hwx0_0 : ∀ i : grid0.Coords, EltTy.bits .f32 = 32 ∨ (Rect.block (s := S8192x8192) S128x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1.size a ≤ S8192x1.size a
  hwx0_1 : ∀ i : grid0.Coords, EltTy.bits .f32 = 32 ∨ (Rect.block (s := S8192x1) S128x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8192.size a ≤ S1x8192.size a
  hwx0_2 : ∀ i : grid0.Coords, EltTy.bits .f32 = 32 ∨ (Rect.block (s := S1x8192) S1x8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x8192.size a ≤ S8192x8192.size a
  hwx0_3 : ∀ i : grid0.Coords, EltTy.bits .f32 = 32 ∨ (Rect.block (s := S8192x8192) S128x8192.size (cc0_transform_3 i) (hinb0_3 i)).WholeWords (EltTy.packing .f32)

variable [Facts₀]

abbrev win0_0 : Pipeline.Window sig grid0 :=
  Pipeline.Window.ofSpec (Memref.whole main_arg0) S128x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S128x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S128x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x8192 : Shape := ⟨2, ![8192, 8192]⟩
abbrev S8192 : Shape := ⟨1, ![8192]⟩
abbrev S_ : Shape := ⟨0, ![]⟩
abbrev S1x8192 : Shape := ⟨2, ![1, 8192]⟩
abbrev S8192x1 : Shape := ⟨2, ![8192, 1]⟩

abbrev nBuf : Space → Nat
  | .hbm => 21
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S8192, .f32⟩
  | .hbm, ⟨6, _⟩ => ⟨S8192, .f32⟩
  | .hbm, ⟨7, _⟩ => ⟨S_, .f32⟩
  | .hbm, ⟨8, _⟩ => ⟨S_, .f32⟩
  | .hbm, ⟨9, _⟩ => ⟨S8192x8192, .f32⟩
  | .hbm, ⟨10, _⟩ => ⟨S8192x8192, .f32⟩
  | .hbm, ⟨11, _⟩ => ⟨S1x8192, .f32⟩
  | .hbm, ⟨12, _⟩ => ⟨S8192x8192, .f32⟩
  | .hbm, ⟨13, _⟩ => ⟨S8192x8192, .f32⟩
  | .hbm, ⟨14, _⟩ => ⟨S8192x1, .f32⟩
  | .hbm, ⟨15, _⟩ => ⟨S8192x8192, .f32⟩
  | .hbm, ⟨16, _⟩ => ⟨S8192x8192, .f32⟩
  | .hbm, ⟨17, _⟩ => ⟨S_, .f32⟩
  | .hbm, ⟨18, _⟩ => ⟨S8192x8192, .f32⟩
  | .hbm, ⟨19, _⟩ => ⟨S8192x8192, .f32⟩
  | .hbm, ⟨20, _⟩ => ⟨S8192x8192, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  reducesTo_S8192_S_d0 : S8192.ReducesTo [0] S_
  h_S_ : 0 < S_.numel
  bcast_S_S8192 : S_.BroadcastsInDim S8192 (![] : Fin 0 → Fin S8192.rank)
  bcast_S_S8192x8192 : S_.BroadcastsInDim S8192x8192 (![] : Fin 0 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)

variable [Facts₀]

class Facts : Prop extends Facts₀ where

variable [Facts]
-- ==== Proof.Spec.lean ====
/-
  The mathematics both programs compute, stated once over the extended reals.

  For a nonnegative-weight matrix `X` (8192 × 8192) and a degree vector `d` (8192), put
  `r p = 1 / d p` (the diagonal of `D⁻¹`) and `s = (Σ d) / 5`. The result is the clamped logarithm
  of the doubly rescaled matrix,

      out (i, j) = log (max (X (i, j) · s · r j · r i) 0.001),

  the clamp `0.001` being the same f32 word on both sides. One program multiplies the four factors
  as `(X · (r i · s)) · r j`, the other as `((X · s) · r j) · r i`: the same product, because the
  multiplication of the extended reals is commutative and associative (no distributivity, hence no
  finiteness of the inputs, is used). Here `r` and `s` stay parameters: how they are computed from
  `d` is the same text in both programs and is never opened.
-/
import Idealize.ShloMosaic.PureOps.Ideal
import Idealize.ShloMosaic.Lib.ValueIdx

noncomputable section

namespace Cert.DiagRescale

open Idealize.ShloMosaic Idealize.ShloMosaic.ValueIdx

/-- The clamped logarithm of `X (i, j) · s · r j · r i`: entry `(i, j)` of the result, from the matrix `X`,
    the reciprocal degrees `r` and the volume scale `s`. -/
def clampLog (X : (⟨2, ![8192, 8192]⟩ : Shape).Idx → EReal) (r : (⟨1, ![8192]⟩ : Shape).Idx → EReal) (s : EReal) :
    (⟨2, ![8192, 8192]⟩ : Shape).Idx → EReal :=
  fun i => Ideal.log (max (X i * s * r (ix1 (i 1)) * r (ix1 (i 0))) (Ideal.ofBits .f32 0x3A83126F#32))

/-- The two groupings of the four factors: the row factor carrying the scale and multiplied first, or the
    scale first and the row factor last. Commutativity and associativity of `·` on the extended reals. -/
theorem mul_regroup (x s ri rj : EReal) : x * (ri * s) * rj = x * s * rj * ri := by
  rw [mul_comm ri s, ← mul_assoc, mul_right_comm]

end Cert.DiagRescale

end
-- ==== Proof.RefValue.lean ====
/-
  The reference's result, read index by index, is the specification `clampLog`.

  The reference multiplies `X (i, j)` by the scale `s = (Σ d) / 5` (a scalar spread over the matrix), then by
  `r j` (the reciprocal degrees laid along a row and spread down the rows), then by `r i` (laid along a
  column and spread across the columns), clamps below at `0.001` and takes the logarithm. Each spreading reads
  its operand at the coordinate it keeps, so entry `(i, j)` is `log (max (X (i, j) · s · r j · r i) 0.001)`,
  which is `clampLog` as it is written.
-/
import proofs.«162482_j56556129354268_2_alg».proof.Proof.Gen.ReferenceIdeal.Read
import proofs.«162482_j56556129354268_2_alg».proof.Proof.Spec

noncomputable section

namespace Cert.ReferenceIdeal.RefValue

open Cert.ReferenceIdeal Cert.ReferenceIdeal.Gen Cert.ReferenceIdeal.Read
open Idealize.ShloMosaic Idealize.ShloMosaic.ValueIdx Cert.DiagRescale

/-- The reciprocal degrees `r = 1 / d` as the reference computes them. -/
abbrev recip (d : (⟨S8192, .f32⟩ : BufTy).Contents (Elt Ideal)) : (⟨S8192, .f32⟩ : BufTy).Contents (Elt Ideal) :=
  val_main_v2 (F := Ideal) d

/-- The scale `s = (Σ d) / 5` as the reference computes it. -/
abbrev scale (d : (⟨S8192, .f32⟩ : BufTy).Contents (Elt Ideal)) : EReal :=
  val_main_v3 (F := Ideal) d ix0

/-- Entry by entry the reference's last stage is `log (max (X · s · r j · r i) 0.001)`. -/
theorem result_eq (X : (⟨S8192x8192, .f32⟩ : BufTy).Contents (Elt Ideal)) (d : (⟨S8192, .f32⟩ : BufTy).Contents (Elt Ideal)) :
    val_main_v14 (F := Ideal) X d = clampLog X (recip d) (scale d) := by
  funext i
  -- the row vector spread down the rows is read at the column coordinate, the column vector at the row coordinate
  have e1 : idx_main_v6 (idx_main_v7 i) = ix1 (i 1) := funext fun a => Fin.ext (by match a with | ⟨0, _⟩ => rfl)
  have e2 : idx_main_v9 (idx_main_v10 i) = ix1 (i 0) := funext fun a => Fin.ext (by match a with | ⟨0, _⟩ => rfl)
  have e3 : idx_main_v4 i = ix0 := funext fun a => a.elim0
  rw [val_main_v14_apply, val_main_v13_apply, val_main_v11_apply, val_main_v8_apply, val_main_v5_apply,
    val_main_v4_apply, val_main_v7_apply, val_main_v6_apply, val_main_v10_apply, val_main_v9_apply,
    val_main_v12_apply, val_main_cst_2_apply]
  simp only [e1, e2, e3, clampLog, scale, recip, Ideal.hostUnary_log_def, Ideal.maximumf_def, Ideal.mulf_def, Ideal.ofBits_def]
  rfl

end Cert.ReferenceIdeal.RefValue

end
-- ==== Proof.KernelHost.lean ====
/-
  The two small vectors the launch is handed, read at an index.

  Before the launch the program computes, from the degree vector `d`, the reciprocal degrees `r = 1 / d` and the
  scale `s = (Σ d) / 5`, and lays them out as the kernel's second and third operands: the COLUMN
  `(r · s)` of shape 8192 × 1 (the row factor, already carrying the scale) and the ROW `r` of shape 1 × 8192
  (the column factor). Both are reshapes of a length-8192 vector, so entry `(p, 0)` of the column and entry
  `(0, q)` of the row are the vector's entries `p` and `q`: the row-major positions agree.
-/
import proofs.«162482_j56556129354268_2_alg».proof.Proof.Gen.KernelIdeal.Value
import proofs.«162482_j56556129354268_2_alg».proof.Proof.Spec
import Idealize.ShloMosaic.Lib.StableHlo.Run
import Idealize.ShloMosaic.Lib.Pipeline.Value

noncomputable section

namespace Cert.KernelIdeal.KernelHost

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The reciprocal degrees `r = 1 / d` as the host prefix computes them. -/
abbrev recip (d : (⟨S8192, .f32⟩ : BufTy).Contents (Elt Ideal)) : (⟨S8192, .f32⟩ : BufTy).Contents (Elt Ideal) :=
  Host.divf (broadcastInDim S8192 ![] bcast_S_S8192 (constant (F := Ideal) S_ .f32 0x3F800000#32)) d

/-- The scale `(Σ d) / 5` as the host prefix computes it, still a rank-0 array. -/
abbrev scaleArr (d : (⟨S8192, .f32⟩ : BufTy).Contents (Elt Ideal)) : (⟨S_, .f32⟩ : BufTy).Contents (Elt Ideal) :=
  Host.divf (Host.reduceAdd d (constant (F := Ideal) S_ .f32 0x00000000#32) reducesTo_S8192_S_d0 h_S_)
    (constant (F := Ideal) S_ .f32 0x40A00000#32)

/-- The scale `s = (Σ d) / 5`, the one entry of that array. -/
abbrev scale (d : (⟨S8192, .f32⟩ : BufTy).Contents (Elt Ideal)) : EReal := scaleArr d ix0

/-- The degree vector as launched on core `c`. -/
abbrev deg (c : Dev nD) : (⟨S8192, .f32⟩ : BufTy).Contents (Elt Ideal) := m ((c : Thread nD τ).loc main_arg1)

/-- The column operand is the reshape of `r · s` (the scale spread over the vector). -/
theorem colOperand_eq (c : Dev nD) :
    (V m c main_v6 : S8192x1.Idx → EReal)
      = shapeCast S8192x1 (mulf (F := Ideal) (s := S8192) (φ := .f32) (recip (deg m c))
          (broadcastInDim S8192 ![] bcast_S_S8192 (scaleArr (deg m c)))) shapeCasts_S8192_S8192x1 := by
  dsimp only [Gen.V, Gen.hostOps0]
  after_results
  rfl

/-- The row operand is the reshape of `r`. -/
theorem rowOperand_eq (c : Dev nD) :
    (V m c main_v7 : S1x8192.Idx → EReal) = shapeCast S1x8192 (recip (deg m c)) shapeCasts_S8192_S1x8192 := by
  dsimp only [Gen.V, Gen.hostOps0]
  after_results
  rfl

/-- Entry `(p, 0)` of the column operand is `r p · s`. -/
theorem colOperand_apply (c : Dev nD) (p : Fin 8192) :
    (V m c main_v6 : S8192x1.Idx → EReal) (ix2 p (0 : Fin 1)) = recip (deg m c) (ix1 p) * scale (deg m c) := by
  rw [colOperand_eq]
  refine (shapeCast_apply _ _ (ix2 p (0 : Fin 1)) (ix1 p) ?_).trans ?_
  · rw [Shape.rowMajor_val_one, Shape.rowMajor_val_two]
    show p.val = p.val * 1 + 0
    omega
  · show recip (deg m c) (ix1 p) * (broadcastInDim S8192 ![] bcast_S_S8192 (scaleArr (deg m c)) (ix1 p)) = _
    rw [broadcastInDim_apply _ bcast_S_S8192 (scaleArr (deg m c)) (ix1 p) ix0 (fun a => a.elim0)]

/-- Entry `(0, q)` of the row operand is `r q`. -/
theorem rowOperand_apply (c : Dev nD) (q : Fin 8192) :
    (V m c main_v7 : S1x8192.Idx → EReal) (ix2 (0 : Fin 1) q) = recip (deg m c) (ix1 q) := by
  rw [rowOperand_eq]
  refine shapeCast_apply _ _ (ix2 (0 : Fin 1) q) (ix1 q) ?_
  rw [Shape.rowMajor_val_one, Shape.rowMajor_val_two]
  show q.val = 0 * 8192 + q.val
  omega

end Cert.KernelIdeal.KernelHost

end
-- ==== Proof.KernelValue.lean ====
/-
  From the kernel's blocks to its whole result array.

  The launch walks 64 grid points. At point `t` the body sees rows `128 t … 128 t + 127` of `X` (all 8192
  columns), the same rows of the 8192 × 1 column operand, and the whole 1 × 8192 row operand (whose block never
  moves), and writes the same rows of the result. Inside the block, entry `(a, b)` is
  `log (max (X-block (a, b) · column-block (a, 0) · row-block (0, b)) 0.001)`. Read on the whole arrays this is
  entry `(128 t + a, b)` of `log (max (X · (r i · s) · r j) 0.001)`, which the regrouping law turns into the
  specification `clampLog`. The 64 row bands tile the array — row `i` lies in band `i / 128` — so after the
  run the result array IS `clampLog` of the launched arrays.
-/
import proofs.«162482_j56556129354268_2_alg».proof.Proof.KernelHost

noncomputable section

namespace Cert.KernelIdeal.KernelValue

open Cert.KernelIdeal Cert.KernelIdeal.Gen Idealize.ShloMosaic Idealize.ShloMosaic.TcCoe Idealize.SL.Sem
open Idealize.ShloMosaic.Pipeline (Dat)
open Idealize.ShloMosaic.ValueIdx Cert.DiagRescale Cert.KernelIdeal.KernelHost

variable (m : (ℓ : Loc nD τ sig) → Buf (Elt Ideal) ℓ) (ρ : Dev nD → PrngReg)

theorem zero_origin : (![0, 0] : Fin 2 → Nat) = fun _ => 0 := funext fun a => by fin_cases a <;> rfl

/-- One entry, over plain variables. Let the three loaded blocks hold, under block index `y`: the matrix entry
    `X i`; the column operand's entry `r p · s` of the same row `p`; the row operand's entry `r q` of the same
    column `q`, where `i = (p, q)`. Then the body's value there — the product of the three, clamped and logged — is
    the specification at `i`. The only law used is the regrouping of the four factors. -/
theorem entry_eq (P0 : Vec Ideal S128x8192 .f32) (P1 : Vec Ideal S128x1 .f32) (P2 : Vec Ideal S1x8192 .f32)
    (y : S128x8192.Idx) (X : S8192x8192.Idx → EReal) (r : S8192.Idx → EReal) (s : EReal)
    (p q : Fin 8192) (i : S8192x8192.Idx) (hi : i = ix2 p q)
    (h0 : P0 (Value.ix3_0 y) = X i) (h1 : P1 (Value.ix3_1 y) = r (ix1 p) * s) (h2 : P2 (Value.ix3_2 y) = r (ix1 q)) :
    Value.E3 (F := Ideal) P0 P1 P2 y = clampLog X r s i := by
  subst hi
  show FloatOps.log (F := Ideal) (φ := .f32) (FloatOps.maximumf (F := Ideal) (φ := .f32)
    (FloatOps.mulf (F := Ideal) (φ := .f32) (FloatOps.mulf (F := Ideal) (φ := .f32) (P0 (Value.ix3_0 y)) (P1 (Value.ix3_1 y)))
      (P2 (Value.ix3_2 y))) (Scalar.ofBits (F := Ideal) .f32 0x3A83126F#32)) = _
  rw [h0, h1, h2]
  exact congrArg (fun z => Ideal.log (max z (Ideal.ofBits .f32 0x3A83126F#32))) (mul_regroup _ _ _ _)

/-- The printed index maps over the 64 points: the blocks of `X` and of the column operand sit at the output's
    block row, which is the point's number; the row operand's block never moves; every block column is 0. -/
theorem idx_facts : ∀ t : Fin cfg0.N,
    win0_0.index t (0 : Fin 2) = win0_3.index t (0 : Fin 2) ∧ win0_0.index t (1 : Fin 2) = 0
    ∧ win0_1.index t (0 : Fin 2) = win0_3.index t (0 : Fin 2) ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The result as one function of the arrays the region finds. -/
abbrev whole (c : Dev nD) : S8192x8192.Idx → EReal :=
  clampLog (V m c main_arg0) (recip (deg m c)) (scale (deg m c))

/-- What point `t` writes back is block `t` (a band of 128 rows) of `whole`. -/
theorem flushed_eq (c : Dev nD) (t : Fin cfg0.N) :
    (dats m 0 c).flushed 3 t = ((cfg0.win 3).blk t).view.read (Elt Ideal) (whole m c) := by
  rw [Value.flushed3]
  unfold out0_3
  simp only [View.ld_unit_zero (S := S128x8192) zero_origin, View.ld_unit_zero (S := S128x1) zero_origin,
    View.ld_unit_zero (S := S1x8192) zero_origin]
  obtain ⟨e0, e1, e2, e3, e4, e5, e6, e7⟩ := idx_facts t
  funext y
  have hy0 : (y 0).val < 128 := (y 0).isLt
  have hy1 : (y 1).val < 8192 := (y 1).isLt
  refine (Value.canon3_eq (F := Ideal) (iblk m c 0 t) (iblk m c 1 t) (iblk m c 2 t) y).trans ?_
  -- name the array index under block index `y` by its coordinates: row `p = 128 t + y₀`, column `q = y₁`
  obtain ⟨p, q, hpq⟩ : ∃ p q : Fin 8192, ((cfg0.win 3).blk t).view.emb y = ix2 p q := ⟨_, _, eq_ix2 _⟩
  have hp : win0_3.index t (0 : Fin 2) * 128 + 1 * (y 0).val = p.val := congrArg (fun j => (j 0).val) hpq
  have hq : win0_3.index t (1 : Fin 2) * 8192 + 1 * (y 1).val = q.val := congrArg (fun j => (j 1).val) hpq
  refine entry_eq (iblk m c 0 t) (iblk m c 1 t) (iblk m c 2 t) y (V m c main_arg0) (recip (deg m c)) (scale (deg m c))
    p q _ hpq ?_ ?_ ?_
  · -- the matrix block's entry is the matrix entry under the output block's entry
    have h : ((cfg0.win 0).blk t).view.emb (Value.ix3_0 y) = ((cfg0.win 3).blk t).view.emb y := by
      funext a; apply Fin.ext
      match a with
      | ⟨0, _⟩ => show win0_0.index t (0 : Fin 2) * 128 + 1 * (y 0).val = win0_3.index t (0 : Fin 2) * 128 + 1 * (y 0).val; omega
      | ⟨1, _⟩ => show win0_0.index t (1 : Fin 2) * 8192 + 1 * (y 1).val = win0_3.index t (1 : Fin 2) * 8192 + 1 * (y 1).val; rw [e1, e7]
    show (V m c main_arg0 : S8192x8192.Idx → EReal) (((cfg0.win 0).blk t).view.emb (Value.ix3_0 y)) = _
    rw [h]
  · -- the column operand is read at the same row, column 0
    have h : ((cfg0.win 1).blk t).view.emb (Value.ix3_1 y) = ix2 p (0 : Fin 1) := by
      funext a; apply Fin.ext
      match a with
      | ⟨0, _⟩ => show win0_1.index t (0 : Fin 2) * 128 + 1 * (y 0).val = p.val; omega
      | ⟨1, _⟩ => show win0_1.index t (1 : Fin 2) * 1 + 1 * 0 = 0; omega
    show (V m c main_v6 : S8192x1.Idx → EReal) (((cfg0.win 1).blk t).view.emb (Value.ix3_1 y)) = _
    rw [h]
    exact colOperand_apply m c p
  · -- the row operand is read at row 0, the same column
    have h : ((cfg0.win 2).blk t).view.emb (Value.ix3_2 y) = ix2 (0 : Fin 1) q := by
      funext a; apply Fin.ext
      match a with
      | ⟨0, _⟩ => show win0_2.index t (0 : Fin 2) * 1 + 1 * 0 = 0; omega
      | ⟨1, _⟩ => show win0_2.index t (1 : Fin 2) * 8192 + 1 * (y 1).val = q.val; rw [e5, ← hq, e7]
    show (V m c main_v7 : S1x8192.Idx → EReal) (((cfg0.win 2).blk t).view.emb (Value.ix3_2 y)) = _
    rw [h]
    exact rowOperand_apply m c q

/-- An index lies in point `t`'s output block iff each coordinate lies in the block's range on its axis. -/
theorem mem_blk (t : Fin cfg0.N) (i : S8192x8192.Idx) :
    i ∈ ((cfg0.win 3).blk t).view.set ↔ ∀ a : Fin 2, win0_3.index t a * S128x8192.size a ≤ (i a).val
      ∧ (i a).val < win0_3.index t a * S128x8192.size a + S128x8192.size a := by
  show i ∈ ((View.whole main_v8).slice (win0_3.rect t)).set ↔ _
  rw [View.set_slice_whole, Rect.mem_set_unit]
  exact Iff.rfl

/-- The 64 row bands tile the array: row `i` lies in the band of point `i / 128`. -/
theorem cover (i : S8192x8192.Idx) :
    ∃ t : Fin cfg0.N, (cfg0.win 3).flush t = true ∧ i ∈ ((cfg0.win 3).blk t).view.set := by
  have hi0 : (i 0).val < 8192 := (i 0).isLt
  have hi1 : (i 1).val < 8192 := (i 1).isLt
  have hN : cfg0.N = 64 := N_0
  have hlt : (i 0).val / 128 < cfg0.N := by rw [hN]; omega
  obtain ⟨-, -, -, -, -, -, e6, e7⟩ := idx_facts ⟨(i 0).val / 128, hlt⟩
  have e6' : win0_3.index ⟨(i 0).val / 128, hlt⟩ (0 : Fin 2) = (i 0).val / 128 := e6
  refine ⟨⟨(i 0).val / 128, hlt⟩, flush0_3 _, ?_⟩
  rw [mem_blk]
  intro a
  match a with
  | ⟨0, _⟩ =>
    show win0_3.index ⟨(i 0).val / 128, hlt⟩ (0 : Fin 2) * 128 ≤ (i 0).val
      ∧ (i 0).val < win0_3.index ⟨(i 0).val / 128, hlt⟩ (0 : Fin 2) * 128 + 128
    omega
  | ⟨1, _⟩ =>
    show win0_3.index ⟨(i 0).val / 128, hlt⟩ (1 : Fin 2) * 8192 ≤ (i 1).val
      ∧ (i 1).val < win0_3.index ⟨(i 0).val / 128, hlt⟩ (1 : Fin 2) * 8192 + 8192
    omega

/-- The result array after the run is the specification of the launched arrays. -/
theorem final (c : Dev nD) :
    (dats m 0 c).arrAt 3 cfg0.N
      = clampLog (m ((c : Thread nD τ).loc main_arg0)) (recip (deg m c)) (scale (deg m c)) := by
  rw [← V_main_arg0 m c]
  exact (dats m 0 c).arrAt_eq_of_cover 3 (whole m c) (fun t _ => flushed_eq m c t) cover

/-- The kernel's run with its result named: every weakly fair execution terminates with the result array at
    `clampLog` of the launched arrays, the arguments unchanged. -/
theorem run : θ_run defs (onTc (τ := τ) (main (F := Ideal))) ⟨m, fun _ => 0, ρ⟩ fun r => ∀ c : Dev nD,
      r.2.mem ((c : Thread nD τ).loc main_v8)
        = clampLog (m ((c : Thread nD τ).loc main_arg0)) (recip (deg m c)) (scale (deg m c))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.KernelValue

end
-- ==== Proof.lean ====
/-
  The certificate of the diagonal rescale with clamp and logarithm.

  Both programs compute, for a matrix `X` (8192 × 8192) and a degree vector `d` (8192),

      out (i, j) = log (max (X (i, j) · s · r j · r i) 0.001),   r = 1 / d,   s = (Σ d) / 5,

  over the extended reals. The reference multiplies `((X · s) · r j) · r i` on whole arrays. The kernel first
  forms the column `r · s` and the row `r`, then, band of 128 rows by band, multiplies
  `(X · (r i · s)) · r j`, clamps and takes the logarithm. The two products are equal because multiplication
  of extended reals is commutative and associative; `r` and `s` are the same expressions of `d` in both
  programs and are never evaluated, and the clamp is the same f32 word on both sides. No finiteness of the
  inputs is needed for the equality, so the precondition is only carried, never opened.

  The three frames are the programs' runs with the value forgotten. The kernel read over the extended reals is
  the same program text as the word-level one, so the conjunct relating the two is `True`.
-/
import proofs.«162482_j56556129354268_2_alg».proof.Defs
import proofs.«162482_j56556129354268_2_alg».proof.Proof.Gen.Kernel
import proofs.«162482_j56556129354268_2_alg».proof.Proof.Gen.Kernel.Skeleton
import proofs.«162482_j56556129354268_2_alg».proof.Proof.Gen.Kernel.Launch
import proofs.«162482_j56556129354268_2_alg».proof.Proof.Gen.Kernel.Points
import proofs.«162482_j56556129354268_2_alg».proof.Proof.Gen.Kernel.Frame
import proofs.«162482_j56556129354268_2_alg».proof.Proof.Gen.KernelIdeal
import proofs.«162482_j56556129354268_2_alg».proof.Proof.Gen.KernelIdeal.Skeleton
import proofs.«162482_j56556129354268_2_alg».proof.Proof.Gen.KernelIdeal.Launch
import proofs.«162482_j56556129354268_2_alg».proof.Proof.Gen.KernelIdeal.Points
import proofs.«162482_j56556129354268_2_alg».proof.Proof.Gen.KernelIdeal.Frame
import proofs.«162482_j56556129354268_2_alg».proof.Proof.Gen.ReferenceIdeal
import proofs.«162482_j56556129354268_2_alg».proof.Proof.Gen.Pre_finite_inputs
import proofs.«162482_j56556129354268_2_alg».proof.Proof.Gen.KernelIdeal.Value
import proofs.«162482_j56556129354268_2_alg».proof.Proof.Gen.ReferenceIdeal.Run
import proofs.«162482_j56556129354268_2_alg».proof.Proof.Gen.ReferenceIdeal.Read
import proofs.«162482_j56556129354268_2_alg».proof.Proof.Spec
import proofs.«162482_j56556129354268_2_alg».proof.Proof.RefValue
import proofs.«162482_j56556129354268_2_alg».proof.Proof.KernelHost
import proofs.«162482_j56556129354268_2_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The reciprocal degrees and the scale are the same expressions of `d` in the two programs. -/
theorem recip_eq (d : (⟨Cert.ReferenceIdeal.S8192, .f32⟩ : BufTy).Contents (Elt Ideal)) :
    Cert.ReferenceIdeal.RefValue.recip d = Cert.KernelIdeal.KernelHost.recip d := rfl

theorem scale_eq (d : (⟨Cert.ReferenceIdeal.S8192, .f32⟩ : BufTy).Contents (Elt Ideal)) :
    Cert.ReferenceIdeal.RefValue.scale d = Cert.KernelIdeal.KernelHost.scale d := rfl

/-- From memories agreeing on `X` and `d`, both programs end with the result array at `clampLog` of them:
    the kernel by its bands tiling the array, the reference by reading its last stage entry by entry. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.result_eq, (hagree c).1, (hagree c).2,
    recip_eq, scale_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
